-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2560 : Shape := ⟨3, ![4, 4096, 2560]⟩
abbrev S4x4096 : Shape := ⟨2, ![4, 4096]⟩
abbrev S4x2560 : Shape := ⟨2, ![4, 2560]⟩
abbrev S2560 : Shape := ⟨1, ![2560]⟩
abbrev S_ : Shape := ⟨0, ![]⟩

class Facts : Prop where
  bcast_S_S4x4096x2560 : S_.BroadcastsInDim S4x4096x2560 (![] : Fin 0 → Fin S4x4096x2560.rank)
  reducesTo_S4x4096x2560_S_d0_1_2 : S4x4096x2560.ReducesTo [0, 1, 2] S_
  h_S_ : 0 < S_.numel
  bcast_S_S4x2560 : S_.BroadcastsInDim S4x2560 (![] : Fin 0 → Fin S4x2560.rank)
  reducesTo_S4x2560_S_d0_1 : S4x2560.ReducesTo [0, 1] S_
  bcast_S_S2560 : S_.BroadcastsInDim S2560 (![] : Fin 0 → Fin S2560.rank)
  reducesTo_S2560_S_d0 : S2560.ReducesTo [0] S_

variable [Facts]

def fn {F : FTy → Type} [FloatOps F] (main_arg0 : FVec F S4x4096x2560 .f32) (main_arg1 : IVec S4x4096 32) (main_arg2 : FVec F S4x2560 .f32) (main_arg3 : FVec F S2560 .f32) : IVec S_ 1 :=
  let main_v0 : FVec F S4x4096x2560 .f32 := Host.absf main_arg0
  let main_cst : FVec F S_ .f32 := constant S_ .f32 0x7F800000#32
  let main_v1 : FVec F S4x4096x2560 .f32 := broadcastInDim S4x4096x2560 ![] bcast_S_S4x4096x2560 main_cst
  let main_v2 : IVec S4x4096x2560 1 := cmpf .olt main_v0 main_v1
  let main_c : IVec S_ 1 := constantI S_ 1 1#1
  let main_v3 : IVec S_ 1 := (fun x v => Host.reduce IntOp.andi x v reducesTo_S4x4096x2560_S_d0_1_2 h_S_) main_v2 main_c
  let main_v4 : FVec F S4x2560 .f32 := Host.absf main_arg2
  let main_cst_0 : FVec F S_ .f32 := constant S_ .f32 0x7F800000#32
  let main_v5 : FVec F S4x2560 .f32 := broadcastInDim S4x2560 ![] bcast_S_S4x2560 main_cst_0
  let main_v6 : IVec S4x2560 1 := cmpf .olt main_v4 main_v5
  let main_c_1 : IVec S_ 1 := constantI S_ 1 1#1
  let main_v7 : IVec S_ 1 := (fun x v => Host.reduce IntOp.andi x v reducesTo_S4x2560_S_d0_1 h_S_) main_v6 main_c_1
  let main_v8 : IVec S_ 1 := andi main_v3 main_v7
  let main_v9 : FVec F S2560 .f32 := Host.absf main_arg3
  let main_cst_2 : FVec F S_ .f32 := constant S_ .f32 0x7F800000#32
  let main_v10 : FVec F S2560 .f32 := broadcastInDim S2560 ![] bcast_S_S2560 main_cst_2
  let main_v11 : IVec S2560 1 := cmpf .olt main_v9 main_v10
  let main_c_3 : IVec S_ 1 := constantI S_ 1 1#1
  let main_v12 : IVec S_ 1 := (fun x v => Host.reduce IntOp.andi x v reducesTo_S2560_S_d0 h_S_) main_v11 main_c_3
  let main_v13 : IVec S_ 1 := andi main_v8 main_v12
  main_v13
-- ==== Kernel.lean ====
abbrev S4x4096x2560 : Shape := ⟨3, ![4, 4096, 2560]⟩
abbrev S4x4096 : Shape := ⟨2, ![4, 4096]⟩
abbrev S4x2560 : Shape := ⟨2, ![4, 2560]⟩
abbrev S2560 : Shape := ⟨1, ![2560]⟩
abbrev S4x4096x1 : Shape := ⟨3, ![4, 4096, 1]⟩
abbrev S4x3x2560 : Shape := ⟨3, ![4, 3, 2560]⟩
abbrev S1x256x2560 : Shape := ⟨3, ![1, 256, 2560]⟩
abbrev S1x256x1 : Shape := ⟨3, ![1, 256, 1]⟩
abbrev S1x3x2560 : Shape := ⟨3, ![1, 3, 2560]⟩
abbrev S3x2560 : Shape := ⟨2, ![3, 2560]⟩
abbrev S259x2560 : Shape := ⟨2, ![259, 2560]⟩
abbrev S256x1 : Shape := ⟨2, ![256, 1]⟩
abbrev S256x2560 : Shape := ⟨2, ![256, 2560]⟩
abbrev S1x2560 : Shape := ⟨2, ![1, 2560]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x2560, .f32⟩
  | .hbm, ⟨1, _⟩ => ⟨S4x4096, .i32⟩
  | .hbm, ⟨2, _⟩ => ⟨S4x2560, .f32⟩
  | .hbm, ⟨3, _⟩ => ⟨S2560, .f32⟩
  | .hbm, ⟨4, _⟩ => ⟨S4x4096x1, .i32⟩
  | .hbm, ⟨5, _⟩ => ⟨S4x4096x2560, .f32⟩
  | .hbm, ⟨6, _⟩ => ⟨S4x3x2560, .f32⟩
  | .local _ .vmem, ⟨0, _⟩ => ⟨S1x256x2560, .f32⟩
  | .local _ .vmem, ⟨1, _⟩ => ⟨S1x256x2560, .f32⟩
  | .local _ .vmem, ⟨2, _⟩ => ⟨S1x256x1, .i32⟩
  | .local _ .vmem, ⟨3, _⟩ => ⟨S1x256x1, .i32⟩
  | .local _ .vmem, ⟨4, _⟩ => ⟨S4x2560, .f32⟩
  | .local _ .vmem, ⟨5, _⟩ => ⟨S2560, .f32⟩
  | .local _ .vmem, ⟨6, _⟩ => ⟨S1x256x2560, .f32⟩
  | .local _ .vmem, ⟨7, _⟩ => ⟨S1x256x2560, .f32⟩
  | .local _ .vmem, ⟨8, _⟩ => ⟨S1x3x2560, .f32⟩
  | .local _ .vmem, ⟨9, _⟩ => ⟨S1x3x2560, .f32⟩
  | .local _ .vmem, ⟨10, _⟩ => ⟨S3x2560, .f32⟩
  | .local _ .vmem, ⟨11, _⟩ => ⟨S259x2560, .f32⟩
  | _, _ => ⟨S4x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v78 : BitVec 1 := Scalar.cmpi .eq arg1 c15_i32
  let v79 : BitVec 32 := Scalar.extui v78
  let c0_i32_57 : BitVec 32 := 0#32
  let v80 : BitVec 1 := Scalar.cmpi .ne v79 c0_i32_57
  v80

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S4x4096_S4x4096x1_0_1 : S4x4096.BroadcastsInDim S4x4096x1 (![0, 1] : Fin 2 → Fin S4x4096x1.rank)
  inb_S3x2560_S3x2560_0_0 : ∀ a, (![0, 0] : Fin 2 → Nat) a + S3x2560.size a ≤ S3x2560.size a
  h_S3x2560 : 0 < S3x2560.numel
  shapeCasts_S3x2560_S3x2560 : S3x2560.ShapeCasts S3x2560
  inb_S259x2560_S3x2560_0_0 : ∀ a, (![0, 0] : Fin 2 → Nat) a + S3x2560.size a ≤ S259x2560.size a
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  natLt_1_32 : 1 < 32
  inb_S1x256x2560_S1x256x2560_0_0_0 : ∀ a, (![0, 0, 0] : Fin 3 → Nat) a + S1x256x2560.size a ≤ S1x256x2560.size a
  h_S1x256x2560 : 0 < S1x256x2560.numel
  shapeCasts_S1x256x2560_S256x2560 : S1x256x2560.ShapeCasts S256x2560
  broadcasts_S256x1_S256x2560 : S256x1.Broadcasts S256x2560
  inb_S259x2560_S256x2560_3_0 : ∀ a, (![3, 0] : Fin 2 → Nat) a + S256x2560.size a ≤ S259x2560.size a
  h_S256x2560 : 0 < S256x2560.numel
  shapeCasts_S256x2560_S256x2560 : S256x2560.ShapeCasts S256x2560
  inb_S2560_S2560_0 : ∀ a, (![0] : Fin 1 → Nat) a + S2560.size a ≤ S2560.size a
  h_S2560 : 0 < S2560.numel
  shapeCasts_S2560_S1x2560 : S2560.ShapeCasts S1x2560
  broadcasts_S1x2560_S256x2560 : S1x2560.Broadcasts S256x2560
  shapeCasts_S256x2560_S1x256x2560 : S256x2560.ShapeCasts S1x256x2560
  inb_S259x2560_S256x2560_0_0 : ∀ a, (![0, 0] : Fin 2 → Nat) a + S256x2560.size a ≤ S259x2560.size a
  inb_S4x2560_S1x2560_0_0 : ∀ a, (![0, 0] : Fin 2 → Nat) a + S1x2560.size a ≤ S4x2560.size a
  h_S1x2560 : 0 < S1x2560.numel
  shapeCasts_S1x2560_S2560 : S1x2560.ShapeCasts S2560
  inb_S259x2560_S256x2560_1_0 : ∀ a, (![1, 0] : Fin 2 → Nat) a + S256x2560.size a ≤ S259x2560.size a
  inb_S4x2560_S1x2560_1_0 : ∀ a, (![1, 0] : Fin 2 → Nat) a + S1x2560.size a ≤ S4x2560.size a
  inb_S259x2560_S256x2560_2_0 : ∀ a, (![2, 0] : Fin 2 → Nat) a + S256x2560.size a ≤ S259x2560.size a
  inb_S4x2560_S1x2560_2_0 : ∀ a, (![2, 0] : Fin 2 → Nat) a + S1x2560.size a ≤ S4x2560.size a
  inb_S4x2560_S1x2560_3_0 : ∀ a, (![3, 0] : Fin 2 → Nat) a + S1x2560.size a ≤ S4x2560.size a
  inb_S259x2560_S3x2560_256_0 : ∀ a, (![256, 0] : Fin 2 → Nat) a + S3x2560.size a ≤ S259x2560.size a
  inb_S1x3x2560_S1x3x2560_0_0_0 : ∀ a, (![0, 0, 0] : Fin 3 → Nat) a + S1x3x2560.size a ≤ S1x3x2560.size a
  h_S1x3x2560 : 0 < S1x3x2560.numel
  shapeCasts_S1x3x2560_S3x2560 : S1x3x2560.ShapeCasts S3x2560
  shapeCasts_S3x2560_S1x3x2560 : S3x2560.ShapeCasts S1x3x2560
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2560.size a ≤ S4x4096x2560.size a
  hwx0_0 : ∀ i : grid0.Coords, EltTy.bits .f32 = 32 ∨ (Rect.block (s := S4x4096x2560) S1x256x2560.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S4x4096x1.size a
  hwx0_1 : ∀ i : grid0.Coords, EltTy.bits .i32 = 32 ∨ (Rect.block (s := S4x4096x1) S1x256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2560.size a ≤ S4x2560.size a
  hwx0_2 : ∀ i : grid0.Coords, EltTy.bits .f32 = 32 ∨ (Rect.block (s := S4x2560) S4x2560.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2560.size a ≤ S2560.size a
  hwx0_3 : ∀ i : grid0.Coords, EltTy.bits .f32 = 32 ∨ (Rect.block (s := S2560) S2560.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2560.size a ≤ S4x4096x2560.size a
  hwx0_4 : ∀ i : grid0.Coords, EltTy.bits .f32 = 32 ∨ (Rect.block (s := S4x4096x2560) S1x256x2560.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x2560.size a ≤ S4x3x2560.size a
  hwx0_5 : ∀ i : grid0.Coords, EltTy.bits .f32 = 32 ∨ (Rect.block (s := S4x3x2560) S1x3x2560.size (cc0_transform_5 i) (hinb0_5 i)).WholeWords (EltTy.packing .f32)

variable [Facts₀]

abbrev win0_0 : Pipeline.Window sig grid0 :=
  Pipeline.Window.ofSpec (Memref.whole main_arg0) S1x256x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x2560.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2560.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x256x2560.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x3x2560.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x2560 : Shape := ⟨3, ![4, 4096, 2560]⟩
abbrev S4x4096 : Shape := ⟨2, ![4, 4096]⟩
abbrev S4x2560 : Shape := ⟨2, ![4, 2560]⟩
abbrev S2560 : Shape := ⟨1, ![2560]⟩
abbrev S_ : Shape := ⟨0, ![]⟩
abbrev S4x4096x1 : Shape := ⟨3, ![4, 4096, 1]⟩
abbrev S4x4099x2560 : Shape := ⟨3, ![4, 4099, 2560]⟩
abbrev S1x2560 : Shape := ⟨2, ![1, 2560]⟩
abbrev S1x1x2560 : Shape := ⟨3, ![1, 1, 2560]⟩
abbrev S4x3x2560 : Shape := ⟨3, ![4, 3, 2560]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2560, .f32⟩
  | .hbm, ⟨1, _⟩ => ⟨S4x4096, .i32⟩
  | .hbm, ⟨2, _⟩ => ⟨S4x2560, .f32⟩
  | .hbm, ⟨3, _⟩ => ⟨S2560, .f32⟩
  | .hbm, ⟨4, _⟩ => ⟨S_, .i32⟩
  | .hbm, ⟨5, _⟩ => ⟨S4x4096, .i32⟩
  | .hbm, ⟨6, _⟩ => ⟨S4x4096, .i1⟩
  | .hbm, ⟨7, _⟩ => ⟨S4x4096x1, .i1⟩
  | .hbm, ⟨8, _⟩ => ⟨S4x4096x1, .f32⟩
  | .hbm, ⟨9, _⟩ => ⟨S4x4096x2560, .f32⟩
  | .hbm, ⟨10, _⟩ => ⟨S4x4096x2560, .f32⟩
  | .hbm, ⟨11, _⟩ => ⟨S_, .i32⟩
  | .hbm, ⟨12, _⟩ => ⟨S_, .f32⟩
  | .hbm, ⟨13, _⟩ => ⟨S4x4099x2560, .f32⟩
  | .hbm, ⟨14, _⟩ => ⟨S4x4096x2560, .f32⟩
  | .hbm, ⟨15, _⟩ => ⟨S4x4096x2560, .f32⟩
  | .hbm, ⟨16, _⟩ => ⟨S1x2560, .f32⟩
  | .hbm, ⟨17, _⟩ => ⟨S2560, .f32⟩
  | .hbm, ⟨18, _⟩ => ⟨S1x1x2560, .f32⟩
  | .hbm, ⟨19, _⟩ => ⟨S4x4096x2560, .f32⟩
  | .hbm, ⟨20, _⟩ => ⟨S4x4096x2560, .f32⟩
  | .hbm, ⟨21, _⟩ => ⟨S4x4096x2560, .f32⟩
  | .hbm, ⟨22, _⟩ => ⟨S4x4096x2560, .f32⟩
  | .hbm, ⟨23, _⟩ => ⟨S1x2560, .f32⟩
  | .hbm, ⟨24, _⟩ => ⟨S2560, .f32⟩
  | .hbm, ⟨25, _⟩ => ⟨S1x1x2560, .f32⟩
  | .hbm, ⟨26, _⟩ => ⟨S4x4096x2560, .f32⟩
  | .hbm, ⟨27, _⟩ => ⟨S4x4096x2560, .f32⟩
  | .hbm, ⟨28, _⟩ => ⟨S4x4096x2560, .f32⟩
  | .hbm, ⟨29, _⟩ => ⟨S4x4096x2560, .f32⟩
  | .hbm, ⟨30, _⟩ => ⟨S1x2560, .f32⟩
  | .hbm, ⟨31, _⟩ => ⟨S2560, .f32⟩
  | .hbm, ⟨32, _⟩ => ⟨S1x1x2560, .f32⟩
  | .hbm, ⟨33, _⟩ => ⟨S4x4096x2560, .f32⟩
  | .hbm, ⟨34, _⟩ => ⟨S4x4096x2560, .f32⟩
  | .hbm, ⟨35, _⟩ => ⟨S4x4096x2560, .f32⟩
  | .hbm, ⟨36, _⟩ => ⟨S4x4096x2560, .f32⟩
  | .hbm, ⟨37, _⟩ => ⟨S1x2560, .f32⟩
  | .hbm, ⟨38, _⟩ => ⟨S2560, .f32⟩
  | .hbm, ⟨39, _⟩ => ⟨S1x1x2560, .f32⟩
  | .hbm, ⟨40, _⟩ => ⟨S4x4096x2560, .f32⟩
  | .hbm, ⟨41, _⟩ => ⟨S4x4096x2560, .f32⟩
  | .hbm, ⟨42, _⟩ => ⟨S4x4096x2560, .f32⟩
  | .hbm, ⟨43, _⟩ => ⟨S4x3x2560, .f32⟩
  | _, _ => ⟨S4x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x2560_0_1_2 : S4x4096x1.BroadcastsInDim S4x4096x2560 (![0, 1, 2] : Fin 3 → Fin S4x4096x2560.rank)
  pads_S4x4096x2560_S4x4099x2560_000_300_000 : S4x4096x2560.Pads (![0, 3, 0] : Fin 3 → Nat) ![0, 0, 0] ![0, 0, 0] S4x4099x2560
  h_S_ : 0 < S_.numel
  bcast_S2560_S4x4096x2560_2 : S2560.BroadcastsInDim S4x4096x2560 (![2] : Fin 1 → Fin S4x4096x2560.rank)
  slices_S4x4099x2560_S4x4096x2560_0_0_0 : S4x4099x2560.Slices ![0, 0, 0] S4x4096x2560
  slices_S4x2560_S1x2560_0_0 : S4x2560.Slices ![0, 0] S1x2560
  shapeCasts_S1x2560_S2560 : S1x2560.ShapeCasts S2560
  bcast_S2560_S1x1x2560_2 : S2560.BroadcastsInDim S1x1x2560 (![2] : Fin 1 → Fin S1x1x2560.rank)
  bcast_S1x1x2560_S4x4096x2560_0_1_2 : S1x1x2560.BroadcastsInDim S4x4096x2560 (![0, 1, 2] : Fin 3 → Fin S4x4096x2560.rank)
  slices_S4x4099x2560_S4x4096x2560_0_1_0 : S4x4099x2560.Slices ![0, 1, 0] S4x4096x2560
  slices_S4x2560_S1x2560_1_0 : S4x2560.Slices ![1, 0] S1x2560
  slices_S4x4099x2560_S4x4096x2560_0_2_0 : S4x4099x2560.Slices ![0, 2, 0] S4x4096x2560
  slices_S4x2560_S1x2560_2_0 : S4x2560.Slices ![2, 0] S1x2560
  slices_S4x4099x2560_S4x4096x2560_0_3_0 : S4x4099x2560.Slices ![0, 3, 0] S4x4096x2560
  slices_S4x2560_S1x2560_3_0 : S4x2560.Slices ![3, 0] S1x2560
  slices_S4x4096x2560_S4x3x2560_0_4093_0 : S4x4096x2560.Slices ![0, 4093, 0] S4x3x2560

variable [Facts₀]

class Facts : Prop extends Facts₀ where

variable [Facts]
-- ==== Proof.TileRead.lean ====
/-
  What each grid point reads: its blocks of the argument arrays, entry by entry.

  Point `t` of the 4 × 16 grid works on batch row `t / 16` and tile `t % 16`: its input tile is time steps
  `256·(t % 16) .. 256·(t % 16) + 255` of that batch row of `x`, its positions the same time steps of `segment_pos`
  (staged through a host copy of `segment_pos` with a trailing unit axis), and it sees the filter and the bias whole.
-/
import proofs.«115671_j50113678409896_2_alg».proof.Proof.Gen.KernelIdeal.Value
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Tiles

open Cert.KernelIdeal Cert.KernelIdeal.Gen

variable (m : (ℓ : Loc nD τ sig) → Buf (Elt Ideal) ℓ) (c : Dev nD)

/-- The argument arrays of device `c`. -/
abbrev argX : S4x4096x2560.Idx → Ideal .f32 := m ((c : Thread nD τ).loc main_arg0)
abbrev argSeg : S4x4096.Idx → BitVec 32 := m ((c : Thread nD τ).loc main_arg1)
abbrev argW : S4x2560.Idx → Ideal .f32 := m ((c : Thread nD τ).loc main_arg2)
abbrev argB : S2560.Idx → Ideal .f32 := m ((c : Thread nD τ).loc main_arg3)

/-- The blocks point `t` finds staged: its input tile, its positions, the filter and the bias. -/
abbrev tileX (t : Fin cfg0.N) : Vec Ideal S1x256x2560 .f32 := iblk m c 0 t
abbrev tileSeg (t : Fin cfg0.N) : Vec Ideal S1x256x1 .i32 := iblk m c 1 t
abbrev tileW (t : Fin cfg0.N) : Vec Ideal S4x2560 .f32 := iblk m c 2 t
abbrev tileB (t : Fin cfg0.N) : Vec Ideal S2560 .f32 := iblk m c 3 t

theorem lt64 (t : Fin cfg0.N) : t.val < 64 := lt_of_lt_of_eq t.isLt (show cfg0.N = 64 from N_0)

/-- The batch row and the tile of a point. -/
abbrev rowOf (t : Fin cfg0.N) : Fin 4 := ⟨t.val / 16, by have := lt64 t; omega⟩
abbrev stepOf (t : Fin cfg0.N) (r : Fin 256) : Fin 4096 := ⟨t.val % 16 * 256 + r.val, by have := r.isLt; omega⟩

/-- The block index of every window at every point, decided over the 64 points. -/
theorem index_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 16 ∧ win0_4.index t (1 : Fin 3) = t.val % 16 ∧ win0_4.index t (2 : Fin 3) = 0
    ∧ win0_5.index t (0 : Fin 3) = t.val / 16 ∧ win0_5.index t (1 : Fin 3) = 0 ∧ win0_5.index t (2 : Fin 3) = 0 :=
  (by decide +kernel : ∀ t : Fin grid0.N, _)

/-- The input tile of point `t`. -/
theorem tile_x (t : Fin cfg0.N) (u : Fin 1) (r : Fin 256) (cc : Fin 2560) :
    tileX m c t (ix3 u r cc) = argX m c (ix3 (rowOf t) (stepOf t r) cc) := by
  obtain ⟨e0, e1, e2, -⟩ := index_facts t
  have hu : u.val = 0 := by omega
  unfold tileX iblk
  rw [View.read_apply]
  show V m c main_arg0 (((cfg0.win 0).blk t).view.emb (ix3 u r cc)) = _
  rw [V_main_arg0]
  refine congrArg _ (funext fun a => Fin.ext ?_)
  match a with
  | ⟨0, _⟩ => show win0_0.index t (0 : Fin 3) * 1 + 1 * u.val = t.val / 16; omega
  | ⟨1, _⟩ => show win0_0.index t (1 : Fin 3) * 256 + 1 * r.val = t.val % 16 * 256 + r.val; omega
  | ⟨2, _⟩ => show win0_0.index t (2 : Fin 3) * 2560 + 1 * cc.val = cc.val; omega

/-- The staged copy of the positions: `segment_pos` with a trailing unit axis. -/
theorem staged_positions : (V m c main_v0 : S4x4096x1.Idx → BitVec 32)
    = broadcastInDim S4x4096x1 ![0, 1] bcast_S4x4096_S4x4096x1_0_1 (argSeg m c) := by
  dsimp only [V, hostOps0]
  after_results

/-- The positions of point `t`'s time steps. -/
theorem tile_seg (t : Fin cfg0.N) (u : Fin 1) (r : Fin 256) (z : Fin 1) :
    tileSeg m c t (ix3 u r z) = argSeg m c (ix2 (rowOf t) (stepOf t r)) := by
  obtain ⟨-, -, -, e0, e1, e2, -⟩ := index_facts t
  have hu : u.val = 0 := by omega
  have hz : z.val = 0 := by omega
  unfold tileSeg iblk
  rw [View.read_apply]
  show V m c main_v0 (((cfg0.win 1).blk t).view.emb (ix3 u r z)) = _
  rw [staged_positions]
  refine broadcastInDim_apply _ _ (argSeg m c) _ (ix2 (rowOf t) (stepOf t r)) fun a => ?_
  match a with
  | ⟨0, _⟩ =>
    show t.val / 16 = if (4 : ℕ) = 1 then 0 else win0_1.index t (0 : Fin 3) * 1 + 1 * u.val
    rw [if_neg (by decide)]; omega
  | ⟨1, _⟩ =>
    show t.val % 16 * 256 + r.val = if (4096 : ℕ) = 1 then 0 else win0_1.index t (1 : Fin 3) * 256 + 1 * r.val
    rw [if_neg (by decide)]; omega

/-- Every point sees the whole filter and the whole bias. -/
theorem tile_w (t : Fin cfg0.N) (k : Fin 4) (cc : Fin 2560) :
    tileW m c t (ix2 k cc) = argW m c (ix2 k cc) := by
  obtain ⟨-, -, -, -, -, -, e0, e1, -⟩ := index_facts t
  unfold tileW iblk
  rw [View.read_apply]
  show V m c main_arg2 (((cfg0.win 2).blk t).view.emb (ix2 k cc)) = _
  rw [V_main_arg2]
  refine congrArg _ (funext fun a => Fin.ext ?_)
  match a with
  | ⟨0, _⟩ => show win0_2.index t (0 : Fin 2) * 4 + 1 * k.val = k.val; omega
  | ⟨1, _⟩ => show win0_2.index t (1 : Fin 2) * 2560 + 1 * cc.val = cc.val; omega

theorem tile_b (t : Fin cfg0.N) (cc : Fin 2560) :
    tileB m c t (ix1 cc) = argB m c (ix1 cc) := by
  obtain ⟨-, -, -, -, -, -, -, -, e0, -⟩ := index_facts t
  unfold tileB iblk
  rw [View.read_apply]
  show V m c main_arg3 (((cfg0.win 3).blk t).view.emb (ix1 cc)) = _
  rw [V_main_arg3]
  refine congrArg _ (funext fun a => Fin.ext ?_)
  match a with
  | ⟨0, _⟩ => show win0_3.index t (0 : Fin 1) * 2560 + 1 * cc.val = cc.val; omega

end Cert.KernelIdeal.Tiles

end
-- ==== Proof.BodyValue.lean ====
/-
  One grid point of the causal depthwise convolution, as a function of what the point finds.

  A point works on a tile of 256 time steps of one batch row. It assembles a WINDOW of 259 rows: rows 0..2 are the
  three rows carried over from the tile before (zeros at the first tile of a batch row), rows 3..258 are the tile's
  own inputs, each multiplied by the mask `segment_pos ≠ 0` of its time step. The output tile is the bias plus four
  taps: tap `k` multiplies rows `k .. k+255` of the window by filter row `k`, and the taps are added in the order
  k = 0, 1, 2, 3. Rows 256..258 of the window are carried to the next tile, and, at the last tile of a batch row, are
  also the cache the kernel returns.

  The theorems below say that each of the body's three control cases (first, middle and last tile of a batch row)
  leaves exactly these values, for any float instance.
-/
import proofs.«115671_j50113678409896_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The window of 259 rows: the carried rows `xs0` in rows 0..2, the masked tile (tile `x0`, positions `x1`) in rows 3..258. -/
def window (xs0 : Vec F S3x2560 .f32) (x1 : Vec F S1x256x1 .i32) (x0 : Vec F S1x256x2560 .f32) : Vec F S259x2560 .f32 :=
  View.canon (Val := Elt F) (s := S259x2560) (e := .f32)
    [⟨Rect.unit (s := S259x2560) ![3, 0] S256x2560.size inb_S259x2560_S256x2560_3_0, k0_pay6 x1 x0⟩,
      ⟨Rect.unit (s := S259x2560) ![0, 0] S3x2560.size inb_S259x2560_S3x2560_0_0, k0_pay5 xs0⟩]

/-- Rows `k .. k+255` of the window, for the taps k = 0, 1, 2. -/
def rows0 (xs0 : Vec F S3x2560 .f32) (x1 : Vec F S1x256x1 .i32) (x0 : Vec F S1x256x2560 .f32) : Vec F S256x2560 .f32 :=
  fun j => window xs0 x1 x0 ((Rect.unit (s := S259x2560) ![0, 0] S256x2560.size inb_S259x2560_S256x2560_0_0).toLoadRect.idx j)
def rows1 (xs0 : Vec F S3x2560 .f32) (x1 : Vec F S1x256x1 .i32) (x0 : Vec F S1x256x2560 .f32) : Vec F S256x2560 .f32 :=
  fun j => window xs0 x1 x0 ((Rect.unit (s := S259x2560) ![1, 0] S256x2560.size inb_S259x2560_S256x2560_1_0).toLoadRect.idx j)
def rows2 (xs0 : Vec F S3x2560 .f32) (x1 : Vec F S1x256x1 .i32) (x0 : Vec F S1x256x2560 .f32) : Vec F S256x2560 .f32 :=
  fun j => window xs0 x1 x0 ((Rect.unit (s := S259x2560) ![2, 0] S256x2560.size inb_S259x2560_S256x2560_2_0).toLoadRect.idx j)

/-- Rows 256..258 of the window: what the next tile is handed. -/
def lastRows (xs0 : Vec F S3x2560 .f32) (x1 : Vec F S1x256x1 .i32) (x0 : Vec F S1x256x2560 .f32) : Vec F S3x2560 .f32 :=
  fun j => window xs0 x1 x0 ((Rect.unit (s := S259x2560) ![256, 0] S3x2560.size inb_S259x2560_S3x2560_256_0).toLoadRect.idx j)

/-- The output tile: the bias `x3`, then the four taps over the window against the filter rows of `x2`, added in order. -/
def taps (x0 : Vec F S1x256x2560 .f32) (x1 : Vec F S1x256x1 .i32) (x2 : Vec F S4x2560 .f32) (x3 : Vec F S2560 .f32)
    (xs0 : Vec F S3x2560 .f32) : Vec F S1x256x2560 .f32 :=
  k0_pay1
    (k0_pay11
      (k0_pay10
        (k0_pay9 (k0_pay8 (k0_pay7 x3)) (rows0 xs0 x1 x0)
          (View.ld x2 (Rect.unit (s := S4x2560) ![0, 0] S1x2560.size inb_S4x2560_S1x2560_0_0)))
        (rows1 xs0 x1 x0) (View.ld x2 (Rect.unit (s := S4x2560) ![1, 0] S1x2560.size inb_S4x2560_S1x2560_1_0)))
      (rows2 xs0 x1 x0) (View.ld x2 (Rect.unit (s := S4x2560) ![2, 0] S1x2560.size inb_S4x2560_S1x2560_2_0)))
    (k0_pay6 x1 x0) (View.ld x2 (Rect.unit (s := S4x2560) ![3, 0] S1x2560.size inb_S4x2560_S1x2560_3_0))

section Cases

variable (c : Dev nD) (i : grid0.Coords) (arg2 : Memref sig .tc .vmem S1x256x2560 .f32) (harg2 : arg2.IsWhole) (arg3 : Memref sig .tc .vmem S1x256x1 .i32) (harg3 : arg3.IsWhole) (arg4 : Memref sig .tc .vmem S4x2560 .f32) (harg4 : arg4.IsWhole) (arg5 : Memref sig .tc .vmem S2560 .f32) (harg5 : arg5.IsWhole) (arg6 : Memref sig .tc .vmem S1x256x2560 .f32) (harg6 : arg6.IsWhole) (arg7 : Memref sig .tc .vmem S1x3x2560 .f32) (harg7 : arg7.IsWhole) (arg8 : Memref sig .tc .vmem S3x2560 .f32) (harg8 : arg8.IsWhole) (arg9 : Memref sig .tc .vmem S259x2560 .f32) (harg9 : arg9.IsWhole)
variable (x0 : Vec F S1x256x2560 .f32) (x1 : Vec F S1x256x1 .i32) (x2 : Vec F S4x2560 .f32) (x3 : Vec F S2560 .f32)

/-- First tile of a batch row: the carried rows are the zeros the body has just stored. -/
theorem out_first (hc0 : cond0_0 i) (hc1 : ¬cond0_1 i) :
    out0_A_4 c i arg2 harg2 arg3 harg3 arg4 harg4 arg5 harg5 arg6 harg6 arg7 harg7 arg8 harg8 arg9 harg9 hc0 hc1 x0 x1 x2 x3 = taps x0 x1 x2 x3 k0_pay4 := by
  unfold out0_A_4
  rw [View.read_writes_eq_canon _ _ _ (cover0_A_4 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz3]
  simp only [View.readCov_cons_toLoadRect]
  simp only [View.readAt_eq_ld, harg2.read_unread, harg3.read_unread, harg4.read_unread, harg5.read_unread, harg8.read_unread, View.ld_unit_zero (S := S1x256x2560) hz3, View.ld_unit_zero (S := S1x256x1) hz3, View.ld_unit_zero (S := S2560) hz1, View.ld_unit_zero (S := S3x2560) hz2]
  simp only [View.readCov_eq_canon']
  rfl

theorem carry_first (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 = k0_pay2 (lastRows k0_pay4 x1 x0) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2]
  simp only [View.readCov_cons_toLoadRect]
  simp only [View.readAt_eq_ld, harg2.read_unread, harg3.read_unread, harg4.read_unread, harg5.read_unread, harg8.read_unread, View.ld_unit_zero (S := S1x256x2560) hz3, View.ld_unit_zero (S := S1x256x1) hz3, View.ld_unit_zero (S := S2560) hz1, View.ld_unit_zero (S := S3x2560) hz2]
  simp only [View.readCov_eq_canon']
  rfl

/-- A middle tile: the carried rows are what the tile before left. -/
theorem out_middle (hc0 : ¬cond0_0 i) (hc1 : ¬cond0_1 i) (xs0 : Vec F S3x2560 .f32) :
    out0_B_4 c i arg2 harg2 arg3 harg3 arg4 harg4 arg5 harg5 arg6 harg6 arg7 harg7 arg8 harg8 arg9 harg9 hc0 hc1 x0 x1 x2 x3 xs0 = taps x0 x1 x2 x3 xs0 := by
  unfold out0_B_4
  rw [View.read_writes_eq_canon _ _ _ (cover0_B_4 c i arg2 harg2 arg3 harg3 arg4 harg4 arg5 harg5 arg6 harg6 arg7 harg7 arg8 harg8 arg9 harg9 hc0 hc1 x0 x1 x2 x3 xs0)]
  unfold kernelRun0_B
  dsimp only
  sl_unfold_words
  rw [View.canon_cons_unit_zero hz3]
  simp only [View.readCov_cons_toLoadRect]
  simp only [View.readAt_eq_ld, harg2.read_unread, harg3.read_unread, harg4.read_unread, harg5.read_unread, harg8.read_unread, View.ld_unit_zero (S := S1x256x2560) hz3, View.ld_unit_zero (S := S1x256x1) hz3, View.ld_unit_zero (S := S2560) hz1, View.ld_unit_zero (S := S3x2560) hz2]
  simp only [View.readCov_eq_canon']
  rfl

theorem carry_middle (hc0 : ¬cond0_0 i) (hc1 : ¬cond0_1 i) (xs0 : Vec F S3x2560 .f32) :
    sout0_B_0 c i arg2 harg2 arg3 harg3 arg4 harg4 arg5 harg5 arg6 harg6 arg7 harg7 arg8 harg8 arg9 harg9 hc0 hc1 x0 x1 x2 x3 xs0 = k0_pay2 (lastRows xs0 x1 x0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero hz2]
  simp only [View.readCov_cons_toLoadRect]
  simp only [View.readAt_eq_ld, harg2.read_unread, harg3.read_unread, harg4.read_unread, harg5.read_unread, harg8.read_unread, View.ld_unit_zero (S := S1x256x2560) hz3, View.ld_unit_zero (S := S1x256x1) hz3, View.ld_unit_zero (S := S2560) hz1, View.ld_unit_zero (S := S3x2560) hz2]
  simp only [View.readCov_eq_canon']
  rfl

/-- The last tile of a batch row: as a middle tile, and the window's last rows are also stored as the cache. -/
theorem out_last (hc0 : ¬cond0_0 i) (hc1 : cond0_1 i) (xs0 : Vec F S3x2560 .f32) :
    out0_C_4 c i arg2 harg2 arg3 harg3 arg4 harg4 arg5 harg5 arg6 harg6 arg7 harg7 arg8 harg8 arg9 harg9 hc0 hc1 x0 x1 x2 x3 xs0 = taps x0 x1 x2 x3 xs0 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_cons_unit_zero hz3]
  simp only [View.readCov_cons_toLoadRect]
  simp only [View.readAt_eq_ld, harg2.read_unread, harg3.read_unread, harg4.read_unread, harg5.read_unread, harg8.read_unread, View.ld_unit_zero (S := S1x256x2560) hz3, View.ld_unit_zero (S := S1x256x1) hz3, View.ld_unit_zero (S := S2560) hz1, View.ld_unit_zero (S := S3x2560) hz2]
  simp only [View.readCov_eq_canon']
  rfl

theorem carry_last (hc0 : ¬cond0_0 i) (hc1 : cond0_1 i) (xs0 : Vec F S3x2560 .f32) :
    sout0_C_0 c i arg2 harg2 arg3 harg3 arg4 harg4 arg5 harg5 arg6 harg6 arg7 harg7 arg8 harg8 arg9 harg9 hc0 hc1 x0 x1 x2 x3 xs0 = k0_pay2 (lastRows xs0 x1 x0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz2]
  simp only [View.readCov_cons_toLoadRect]
  simp only [View.readAt_eq_ld, harg2.read_unread, harg3.read_unread, harg4.read_unread, harg5.read_unread, harg8.read_unread, View.ld_unit_zero (S := S1x256x2560) hz3, View.ld_unit_zero (S := S1x256x1) hz3, View.ld_unit_zero (S := S2560) hz1, View.ld_unit_zero (S := S3x2560) hz2]
  simp only [View.readCov_eq_canon']
  rfl

theorem cache_last (hc0 : ¬cond0_0 i) (hc1 : cond0_1 i) (xs0 : Vec F S3x2560 .f32) :
    out0_C_5 c i arg2 harg2 arg3 harg3 arg4 harg4 arg5 harg5 arg6 harg6 arg7 harg7 arg8 harg8 arg9 harg9 hc0 hc1 x0 x1 x2 x3 xs0 = k0_pay3 (lastRows xs0 x1 x0) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz3]
  simp only [View.readCov_cons_toLoadRect]
  simp only [View.readAt_eq_ld, harg2.read_unread, harg3.read_unread, harg4.read_unread, harg5.read_unread, harg8.read_unread, View.ld_unit_zero (S := S1x256x2560) hz3, View.ld_unit_zero (S := S1x256x1) hz3, View.ld_unit_zero (S := S2560) hz1, View.ld_unit_zero (S := S3x2560) hz2]
  simp only [View.readCov_eq_canon']
  rfl

end Cases

end Cert.KernelIdeal.Body

end
-- ==== Proof.BodyRead.lean ====
/-
  The values one grid point leaves, read entry by entry over the extended reals.

  With `P j` the value of window row `j` at a channel (rows 0..2 the carried rows, rows 3..258 the tile's inputs times
  the mask of their time step), the output tile at row `r` is
  `(((bias + P r · w₀) + P (r+1) · w₁) + P (r+2) · w₂) + P (r+3) · w₃`, and the rows handed on are `P 256 .. P 258`.
-/
import proofs.«115671_j50113678409896_2_alg».proof.Proof.BodyValue
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen

/-! ## The window, row by row (any float instance) -/

section Window

variable {F : FTy → Type} [FloatOps F]
variable (xs0 : Vec F S3x2560 .f32) (x1 : Vec F S1x256x1 .i32) (x0 : Vec F S1x256x2560 .f32)

/-- Rows 0..2 of the window are the carried rows. -/
theorem window_low (j : Fin 259) (c : Fin 2560) (h : j.val < 3) :
    window xs0 x1 x0 (ix2 j c) = xs0 (ix2 (⟨j.val, h⟩ : Fin 3) c) := by
  unfold window
  rw [View.canon_cons_of_not_mem _ _ (by
    rw [Rect.mem_set_unit]
    intro h'
    have h0 := (h' 0).1
    have : (3 : ℕ) ≤ j.val := h0
    omega)]
  have e : (ix2 j c : S259x2560.Idx)
      = (Rect.unit (s := S259x2560) ![0, 0] S3x2560.size inb_S259x2560_S3x2560_0_0).emb (ix2 (⟨j.val, h⟩ : Fin 3) c) := by
    funext a
    apply Fin.ext
    match a with
    | ⟨0, _⟩ => show j.val = 0 + 1 * j.val; omega
    | ⟨1, _⟩ => show c.val = 0 + 1 * c.val; omega
  rw [e, View.canon_cons_emb]
  unfold k0_pay5
  rw [shapeCast_self]

/-- Rows 3..258 of the window are the masked tile. -/
theorem window_high (j : Fin 259) (c : Fin 2560) (h : 3 ≤ j.val) :
    window xs0 x1 x0 (ix2 j c) = k0_pay6 x1 x0 (ix2 (⟨j.val - 3, by have := j.isLt; omega⟩ : Fin 256) c) := by
  unfold window
  have e : (ix2 j c : S259x2560.Idx)
      = (Rect.unit (s := S259x2560) ![3, 0] S256x2560.size inb_S259x2560_S256x2560_3_0).emb
          (ix2 (⟨j.val - 3, by have := j.isLt; omega⟩ : Fin 256) c) := by
    funext a
    apply Fin.ext
    match a with
    | ⟨0, _⟩ => show j.val = 3 + 1 * (j.val - 3); omega
    | ⟨1, _⟩ => show c.val = 0 + 1 * c.val; omega
  rw [e, View.canon_cons_emb]

theorem rows0_apply (r : Fin 256) (c : Fin 2560) :
    rows0 xs0 x1 x0 (ix2 r c) = window xs0 x1 x0 (ix2 (⟨r.val, by have := r.isLt; omega⟩ : Fin 259) c) := by
  unfold rows0
  refine congrArg (window xs0 x1 x0) (funext fun a => Fin.ext ?_)
  match a with
  | ⟨0, _⟩ => show 0 + 1 * r.val = r.val; omega
  | ⟨1, _⟩ => show 0 + 1 * c.val = c.val; omega

theorem rows1_apply (r : Fin 256) (c : Fin 2560) :
    rows1 xs0 x1 x0 (ix2 r c) = window xs0 x1 x0 (ix2 (⟨r.val + 1, by have := r.isLt; omega⟩ : Fin 259) c) := by
  unfold rows1
  refine congrArg (window xs0 x1 x0) (funext fun a => Fin.ext ?_)
  match a with
  | ⟨0, _⟩ => show 1 + 1 * r.val = r.val + 1; omega
  | ⟨1, _⟩ => show 0 + 1 * c.val = c.val; omega

theorem rows2_apply (r : Fin 256) (c : Fin 2560) :
    rows2 xs0 x1 x0 (ix2 r c) = window xs0 x1 x0 (ix2 (⟨r.val + 2, by have := r.isLt; omega⟩ : Fin 259) c) := by
  unfold rows2
  refine congrArg (window xs0 x1 x0) (funext fun a => Fin.ext ?_)
  match a with
  | ⟨0, _⟩ => show 2 + 1 * r.val = r.val + 2; omega
  | ⟨1, _⟩ => show 0 + 1 * c.val = c.val; omega

theorem lastRows_apply (j : Fin 3) (c : Fin 2560) :
    lastRows xs0 x1 x0 (ix2 j c) = window xs0 x1 x0 (ix2 (⟨256 + j.val, by have := j.isLt; omega⟩ : Fin 259) c) := by
  unfold lastRows
  refine congrArg (window xs0 x1 x0) (funext fun a => Fin.ext ?_)
  match a with
  | ⟨0, _⟩ => show 256 + 1 * j.val = 256 + j.val; omega
  | ⟨1, _⟩ => show 0 + 1 * c.val = c.val; omega

/-- Filter row `k` as the body loads it. -/
theorem filterRow_apply (x2 : Vec F S4x2560 .f32) (k : ℕ) (hk : k < 4) (inb : ∀ a, (![k, 0] : Fin 2 → ℕ) a + S1x2560.size a ≤ S4x2560.size a)
    (u : Fin 1) (c : Fin 2560) :
    View.ld x2 (Rect.unit (s := S4x2560) ![k, 0] S1x2560.size inb) (ix2 u c) = x2 (ix2 (⟨k, hk⟩ : Fin 4) c) := by
  refine congrArg x2 (funext fun a => Fin.ext ?_)
  have hu : u.val = 0 := by omega
  match a with
  | ⟨0, _⟩ => show k + 1 * u.val = k; omega
  | ⟨1, _⟩ => show 0 + 1 * c.val = c.val; omega

end Window

/-! ## The arithmetic, entry by entry (extended reals) -/

/-- The mask as the body computes it: the comparison's bit widened to 32 bits, read as a signed integer. -/
def maskK (p : BitVec 32) : Ideal .f32 := FloatOps.sitofp (F := Ideal) .f32 ((IntOp.cmpi .ne p 0#32).setWidth 32)

theorem bias_apply (v20 : Vec Ideal S2560 .f32) (u : Fin 1) (r : Fin 256) (c : Fin 2560) :
    k0_pay7 v20 (ix3 u r c) = v20 (ix1 c) := by
  unfold k0_pay7
  rw [shapeCast_ab_1ab_apply, broadcastTo_1b_ab_apply, shapeCast_a_1a_apply]

theorem start_apply (v26 : Vec Ideal S1x256x2560 .f32) (r : Fin 256) (c : Fin 2560) :
    k0_pay8 v26 (ix2 r c) = v26 (ix3 (0 : Fin 1) r c) := by
  unfold k0_pay8
  rw [shapeCast_1ab_ab_apply]

theorem tap0_apply (v27 : FVec Ideal S256x2560 .f32) (v28 : Vec Ideal S256x2560 .f32) (v29 : Vec Ideal S1x2560 .f32)
    (u : Fin 1) (r : Fin 256) (c : Fin 2560) :
    k0_pay9 v27 v28 v29 (ix3 u r c) = v27 (ix2 r c) + v28 (ix2 r c) * v29 (ix2 (0 : Fin 1) c) := by
  unfold k0_pay9
  rw [shapeCast_ab_1ab_apply, addf_apply, mulf_apply, broadcastTo_1b_ab_apply, shapeCast_a_1a_apply, shapeCast_1a_a_apply]

theorem tap1_apply (v38 : Vec Ideal S1x256x2560 .f32) (v40 : Vec Ideal S256x2560 .f32) (v41 : Vec Ideal S1x2560 .f32)
    (u : Fin 1) (r : Fin 256) (c : Fin 2560) :
    k0_pay10 v38 v40 v41 (ix3 u r c) = v38 (ix3 (0 : Fin 1) r c) + v40 (ix2 r c) * v41 (ix2 (0 : Fin 1) c) := by
  unfold k0_pay10
  rw [shapeCast_ab_1ab_apply, addf_apply, mulf_apply, shapeCast_1ab_ab_apply, broadcastTo_1b_ab_apply, shapeCast_a_1a_apply,
    shapeCast_1a_a_apply]

theorem tap2_apply (v50 : Vec Ideal S1x256x2560 .f32) (v52 : Vec Ideal S256x2560 .f32) (v53 : Vec Ideal S1x2560 .f32)
    (u : Fin 1) (r : Fin 256) (c : Fin 2560) :
    k0_pay11 v50 v52 v53 (ix3 u r c) = v50 (ix3 (0 : Fin 1) r c) + v52 (ix2 r c) * v53 (ix2 (0 : Fin 1) c) := by
  unfold k0_pay11
  rw [shapeCast_ab_1ab_apply, addf_apply, mulf_apply, shapeCast_1ab_ab_apply, broadcastTo_1b_ab_apply, shapeCast_a_1a_apply,
    shapeCast_1a_a_apply]

theorem tap3_apply (v62 : Vec Ideal S1x256x2560 .f32) (v64 : Vec Ideal S256x2560 .f32) (v65 : Vec Ideal S1x2560 .f32)
    (u : Fin 1) (r : Fin 256) (c : Fin 2560) :
    k0_pay1 v62 v64 v65 (ix3 u r c) = v62 (ix3 (0 : Fin 1) r c) + v64 (ix2 r c) * v65 (ix2 (0 : Fin 1) c) := by
  unfold k0_pay1
  rw [shapeCast_ab_1ab_apply, addf_apply, mulf_apply, shapeCast_1ab_ab_apply, broadcastTo_1b_ab_apply, shapeCast_a_1a_apply,
    shapeCast_1a_a_apply]

/-- A `[256, 1]` column broadcast to `[256, 2560]` reads, at `(r, c)`, the column at `r`. -/
theorem column_apply {α : Type} (v : S256x1.Idx → α) (h : S256x1.Broadcasts S256x2560) (r : Fin 256) (c : Fin 2560) :
    broadcastTo S256x2560 v h (ix2 r c) = v (ix2 r (0 : Fin 1)) := by
  refine broadcastTo_apply v h (ix2 r c) (ix2 r (0 : Fin 1)) fun ax => ?_
  match ax with
  | ⟨0, _⟩ => show r.val = if (256 : ℕ) = 1 then 0 else r.val; rw [if_neg (by decide)]
  | ⟨1, _⟩ => show 0 = if (1 : ℕ) = 1 then 0 else c.val; rw [if_pos rfl]

/-- A `[1, 256, 1]` array cast to `[256, 1]` reads, at `(r, 0)`, the operand at `(0, r, 0)`. -/
theorem positions_apply {α : Type} (v : S1x256x1.Idx → α) (h : S1x256x1.ShapeCasts S256x1) (r : Fin 256) (z : Fin 1) :
    shapeCast S256x1 v h (ix2 r z) = v (ix3 (0 : Fin 1) r (0 : Fin 1)) :=
  shapeCast_apply v h _ _ (by
    have hz : z.val = 0 := by omega
    rw [Shape.rowMajor_val_three, Shape.rowMajor_val_two]
    show (0 * 256 + r.val) * 1 + 0 = r.val * 1 + z.val
    omega)

/-- The masked tile: input times the mask of its time step. -/
theorem maskedTile_apply (v7 : Vec Ideal S1x256x1 .i32) (v13 : Vec Ideal S1x256x2560 .f32) (r : Fin 256) (c : Fin 2560) :
    k0_pay6 v7 v13 (ix2 r c) = v13 (ix3 (0 : Fin 1) r c) * maskK (v7 (ix3 (0 : Fin 1) r (0 : Fin 1))) := by
  unfold k0_pay6
  rw [shapeCast_self, mulf_apply, shapeCast_1ab_ab_apply, column_apply, sitofp_apply, extui_apply]
  show _ * FloatOps.sitofp .f32 ((IntOp.cmpi .ne (shapeCast S256x1 v7 _ (ix2 r 0)) 0#32).setWidth 32) = _
  rw [positions_apply]
  rfl

theorem zeros_apply (j : Fin 3) (c : Fin 2560) : (k0_pay4 (F := Ideal)) (ix2 j c) = 0 := by
  unfold k0_pay4
  rw [shapeCast_self]
  exact Ideal.ofBits_zero_f32

theorem carried_eq (v74 : Vec Ideal S3x2560 .f32) : k0_pay2 v74 = v74 := by
  unfold k0_pay2
  rw [shapeCast_self]

theorem cache_apply (v74 : Vec Ideal S3x2560 .f32) (u : Fin 1) (j : Fin 3) (c : Fin 2560) :
    k0_pay3 v74 (ix3 u j c) = v74 (ix2 j c) := by
  unfold k0_pay3
  rw [shapeCast_ab_1ab_apply]

/-! ## The point's results from the window's rows -/

section Results

variable (x0 : Vec Ideal S1x256x2560 .f32) (x1 : Vec Ideal S1x256x1 .i32) (x2 : Vec Ideal S4x2560 .f32) (x3 : Vec Ideal S2560 .f32)
  (xs0 : Vec Ideal S3x2560 .f32) (c : Fin 2560) (P : ℕ → Ideal .f32)

/-- Window row `j` at channel `c` is `P j`, given that the carried rows and the masked tile are. -/
theorem window_eq (hlo : ∀ (j : ℕ) (h : j < 3), xs0 (ix2 (⟨j, h⟩ : Fin 3) c) = P j)
    (hhi : ∀ r : Fin 256, x0 (ix3 (0 : Fin 1) r c) * maskK (x1 (ix3 (0 : Fin 1) r (0 : Fin 1))) = P (r.val + 3))
    (j : Fin 259) : window xs0 x1 x0 (ix2 j c) = P j.val := by
  by_cases h : j.val < 3
  · rw [window_low xs0 x1 x0 j c h]; exact hlo j.val h
  · have h3 : 3 ≤ j.val := by omega
    rw [window_high xs0 x1 x0 j c h3, maskedTile_apply, hhi]
    show P (j.val - 3 + 3) = P j.val
    rw [Nat.sub_add_cancel h3]

theorem taps_apply (hlo : ∀ (j : ℕ) (h : j < 3), xs0 (ix2 (⟨j, h⟩ : Fin 3) c) = P j)
    (hhi : ∀ r : Fin 256, x0 (ix3 (0 : Fin 1) r c) * maskK (x1 (ix3 (0 : Fin 1) r (0 : Fin 1))) = P (r.val + 3))
    (u : Fin 1) (r : Fin 256) :
    taps x0 x1 x2 x3 xs0 (ix3 u r c)
      = (((x3 (ix1 c) + P r.val * x2 (ix2 (0 : Fin 4) c)) + P (r.val + 1) * x2 (ix2 (1 : Fin 4) c))
          + P (r.val + 2) * x2 (ix2 (2 : Fin 4) c)) + P (r.val + 3) * x2 (ix2 (3 : Fin 4) c) := by
  unfold taps
  rw [tap3_apply, tap2_apply, tap1_apply, tap0_apply, start_apply, bias_apply, maskedTile_apply, hhi r,
    rows0_apply, rows1_apply, rows2_apply,
    window_eq x0 x1 xs0 c P hlo hhi, window_eq x0 x1 xs0 c P hlo hhi, window_eq x0 x1 xs0 c P hlo hhi,
    filterRow_apply x2 0 (by decide), filterRow_apply x2 1 (by decide), filterRow_apply x2 2 (by decide), filterRow_apply x2 3 (by decide)]
  rfl

theorem lastRows_eq (hlo : ∀ (j : ℕ) (h : j < 3), xs0 (ix2 (⟨j, h⟩ : Fin 3) c) = P j)
    (hhi : ∀ r : Fin 256, x0 (ix3 (0 : Fin 1) r c) * maskK (x1 (ix3 (0 : Fin 1) r (0 : Fin 1))) = P (r.val + 3))
    (j : Fin 3) : lastRows xs0 x1 x0 (ix2 j c) = P (256 + j.val) := by
  rw [lastRows_apply, window_eq x0 x1 xs0 c P hlo hhi]

end Results

end Cert.KernelIdeal.Body

end
-- ==== Proof.ConvSpec.lean ====
/-
  The causal depthwise convolution with a document mask, as one function of the argument arrays, over the extended reals.

  Arguments: `x` of shape [4, 4096, 2560] (batch row, time step, channel), `seg` of shape [4, 4096] (the position of
  each time step inside its document, an integer), a filter `w` of shape [4, 2560] (tap, channel) and a bias of shape
  [2560]. A time step whose position is 0 starts a document and is zeroed: `masked = x · [seg ≠ 0]`. The sequence of
  each batch row is padded with three zero time steps in front, and the output at time step `s` is

      ((((bias + padded s · w₀) + padded (s+1) · w₁) + padded (s+2) · w₂) + padded (s+3) · w₃)

  per channel, the taps added in this order. The second result is the last three masked time steps of each batch row.
-/
import Idealize.ShloMosaic.PureOps.Ideal
import Idealize.ShloMosaic.PureOps.Ideal.Laws
import Idealize.ShloMosaic.Lib.ValueIdx

noncomputable section

namespace Cert.Conv

open Idealize.ShloMosaic Idealize.ShloMosaic.ValueIdx

/-- The mask of one time step: 1 where its position is not 0, else 0 (the comparison's bit read as a number). -/
def maskOf (p : BitVec 32) : Ideal .f32 := FloatOps.uitofp (F := Ideal) .f32 (IntOp.cmpi .ne p 0#32)

/-- The same number from the bit widened to 32 bits and read as a signed integer. -/
theorem sitofp_setWidth (b : BitVec 1) :
    FloatOps.sitofp (F := Ideal) .f32 (b.setWidth 32) = FloatOps.uitofp (F := Ideal) .f32 b := by
  have hb : b = 0#1 ∨ b = 1#1 := by
    rcases Nat.lt_or_ge b.toNat 1 with h | h
    · left; apply BitVec.eq_of_toNat_eq; simp; omega
    · right; apply BitVec.eq_of_toNat_eq; have := b.isLt; simp; omega
  rcases hb with rfl | rfl
  · show (((BitVec.setWidth 32 0#1).toInt : ℝ) : EReal) = (((0#1 : BitVec 1).toNat : ℝ) : EReal)
    norm_num
  · show (((BitVec.setWidth 32 1#1).toInt : ℝ) : EReal) = (((1#1 : BitVec 1).toNat : ℝ) : EReal)
    have : (BitVec.setWidth 32 1#1).toInt = 1 := by decide
    rw [this]; norm_num

variable (x : (⟨3, ![4, 4096, 2560]⟩ : Shape).Idx → Ideal .f32) (seg : (⟨2, ![4, 4096]⟩ : Shape).Idx → BitVec 32)
  (w : (⟨2, ![4, 2560]⟩ : Shape).Idx → Ideal .f32) (bias : (⟨1, ![2560]⟩ : Shape).Idx → Ideal .f32)

/-- The input with the first time step of every document zeroed. -/
def masked (b : Fin 4) (s : Fin 4096) (c : Fin 2560) : Ideal .f32 := x (ix3 b s c) * maskOf (seg (ix2 b s))

/-- Time step `j` of batch row `b` after three zero time steps are put in front: 0 for j < 3, else masked time step j − 3. -/
def padded (b : Fin 4) (j : ℕ) (c : Fin 2560) : Ideal .f32 :=
  if h : 3 ≤ j ∧ j < 4099 then masked x seg b ⟨j - 3, by omega⟩ c else 0

theorem padded_lt {b : Fin 4} {j : ℕ} {c : Fin 2560} (h : j < 3) : padded x seg b j c = 0 :=
  dif_neg (by omega)

theorem padded_ge {b : Fin 4} {j : ℕ} {c : Fin 2560} (h3 : 3 ≤ j) (h : j - 3 < 4096) :
    padded x seg b j c = masked x seg b ⟨j - 3, h⟩ c :=
  dif_pos ⟨h3, by omega⟩

/-- The convolution's output at batch row `b`, time step `s`, channel `c`. -/
def out (b : Fin 4) (s : Fin 4096) (c : Fin 2560) : Ideal .f32 :=
  (((bias (ix1 c) + padded x seg b s.val c * w (ix2 0 c)) + padded x seg b (s.val + 1) c * w (ix2 1 c))
    + padded x seg b (s.val + 2) c * w (ix2 2 c)) + padded x seg b (s.val + 3) c * w (ix2 3 c)

/-- The two results as whole arrays. -/
def outArr : (⟨3, ![4, 4096, 2560]⟩ : Shape).Idx → Ideal .f32 := fun i => out x seg w bias (i 0) (i 1) (i 2)

def cacheArr : (⟨3, ![4, 3, 2560]⟩ : Shape).Idx → Ideal .f32 :=
  fun i => masked x seg (i 0) ⟨4093 + (i 1).val, by have h : (i 1).val < 3 := (i 1).isLt; omega⟩ (i 2)

end Cert.Conv

end
-- ==== Proof.TileValue.lean ====
/-
  The grid, point by point: what every output tile holds and what is carried from tile to tile.

  Write `pad t j` for the zero-padded, masked sequence of point `t`'s batch row at time step `256·(t % 16) + j`. The
  window of point `t` is `pad t 0 .. pad t 258`: its rows 3..258 are the point's own masked inputs, and its rows 0..2
  are zeros at the first tile of a batch row (where `pad t j` is in the padding) and otherwise the last rows of the
  window of the point before, `pad (t − 1) (256 + j) = pad t j`. By induction on the point the carried rows are always
  these, so every output tile is the convolution at its time steps and the rows stored at the last tile of a batch row
  are its last three masked time steps.
-/
import proofs.«115671_j50113678409896_2_alg».proof.Proof.TileRead
import proofs.«115671_j50113678409896_2_alg».proof.Proof.BodyRead
import proofs.«115671_j50113678409896_2_alg».proof.Proof.ConvSpec

set_option maxRecDepth 16384

noncomputable section

open Idealize.ShloMosaic Idealize.ShloMosaic.TcCoe Idealize.SL.Sem Idealize.ShloMosaic.ValueIdx

namespace Cert.KernelIdeal.Tiles

open Cert.KernelIdeal Cert.KernelIdeal.Gen Cert.KernelIdeal.Body

variable (m : (ℓ : Loc nD τ sig) → Buf (Elt Ideal) ℓ) (c : Dev nD)

/-- Window row `j` of point `t` at channel `cc`: the padded sequence of the point's batch row at time step `256·(t % 16) + j`. -/
def pad (t : Fin cfg0.N) (cc : Fin 2560) (j : ℕ) : Ideal .f32 :=
  Conv.padded (argX m c) (argSeg m c) (rowOf t) (t.val % 16 * 256 + j) cc

/-- The body's mask is the specification's. -/
theorem maskK_eq (p : BitVec 32) : maskK p = Conv.maskOf p := Conv.sitofp_setWidth _

/-- Rows 3..258 of the window are the point's masked inputs. -/
theorem tile_masked (t : Fin cfg0.N) (cc : Fin 2560) (r : Fin 256) :
    tileX m c t (ix3 (0 : Fin 1) r cc) * maskK (tileSeg m c t (ix3 (0 : Fin 1) r (0 : Fin 1)))
      = pad m c t cc (r.val + 3) := by
  rw [tile_x, tile_seg, maskK_eq]
  unfold pad
  have hr := r.isLt
  have ht := lt64 t
  rw [Conv.padded_ge _ _ (by omega) (by omega)]
  unfold Conv.masked
  have e : (⟨t.val % 16 * 256 + (r.val + 3) - 3, by omega⟩ : Fin 4096) = stepOf t r := Fin.ext (by show t.val % 16 * 256 + (r.val + 3) - 3 = t.val % 16 * 256 + r.val; omega)
  rw [e]

/-- At the first tile of a batch row the zeros the body stores are the padding. -/
theorem zeros_pad (t : Fin cfg0.N) (h0 : t.val % 16 = 0) (cc : Fin 2560) (j : ℕ) (hj : j < 3) :
    (k0_pay4 (F := Ideal)) (ix2 (⟨j, hj⟩ : Fin 3) cc) = pad m c t cc j := by
  rw [zeros_apply]
  unfold pad
  rw [Conv.padded_lt _ _ (by omega)]

/-- The last rows of the window before are the first rows of this one. -/
theorem pad_prev (t : Fin cfg0.N) (h0 : ¬t.val % 16 = 0) (h' : t.val - 1 < cfg0.N) (cc : Fin 2560) (j : ℕ) :
    pad m c ⟨t.val - 1, h'⟩ cc (256 + j) = pad m c t cc j := by
  unfold pad
  have e1 : rowOf (⟨t.val - 1, h'⟩ : Fin cfg0.N) = rowOf t := Fin.ext (by show (t.val - 1) / 16 = t.val / 16; omega)
  have e2 : (t.val - 1) % 16 * 256 + (256 + j) = t.val % 16 * 256 + j := by omega
  rw [e1]
  show Conv.padded _ _ _ ((t.val - 1) % 16 * 256 + (256 + j)) cc = _
  rw [e2]

section Point

variable (t : Fin cfg0.N) (xs0 : Vec Ideal S3x2560 .f32) (cc : Fin 2560)

/-- A point whose carried rows are `pad t 0 .. pad t 2` leaves the convolution in its output tile … -/
theorem point_out (hcar : ∀ (j : ℕ) (h : j < 3), xs0 (ix2 (⟨j, h⟩ : Fin 3) cc) = pad m c t cc j) (u : Fin 1) (r : Fin 256) :
    taps (tileX m c t) (tileSeg m c t) (tileW m c t) (tileB m c t) xs0 (ix3 u r cc)
      = Conv.out (argX m c) (argSeg m c) (argW m c) (argB m c) (rowOf t) (stepOf t r) cc := by
  rw [taps_apply (tileX m c t) (tileSeg m c t) (tileW m c t) (tileB m c t) xs0 cc (pad m c t cc) hcar (tile_masked m c t cc) u r,
    tile_b, tile_w, tile_w, tile_w, tile_w]
  unfold Conv.out pad
  simp only [Nat.add_assoc]

/-- … and hands on `pad t 256 .. pad t 258`. -/
theorem point_last (hcar : ∀ (j : ℕ) (h : j < 3), xs0 (ix2 (⟨j, h⟩ : Fin 3) cc) = pad m c t cc j) (j : Fin 3) :
    lastRows xs0 (tileSeg m c t) (tileX m c t) (ix2 j cc) = pad m c t cc (256 + j.val) :=
  lastRows_eq (tileX m c t) (tileSeg m c t) xs0 cc (pad m c t cc) hcar (tile_masked m c t cc) j

end Point

/-- THE CARRIED ROWS after point `n`, by induction on the point. -/
theorem carry_inv : ∀ (n : ℕ) (h : n < cfg0.N) (cc : Fin 2560) (j : ℕ) (hj : j < 3),
    (outsAt0 m c n h).2.2 (ix2 (⟨j, hj⟩ : Fin 3) cc) = pad m c ⟨n, h⟩ cc (256 + j) := by
  intro n
  induction n with
  | zero =>
    intro h cc j hj
    rw [outsAt0_A m c ⟨0, h⟩ (Nat.zero_mod 16) (by show ¬(0 : ℕ) % 16 = 15; decide)]
    dsimp only
    rw [carry_first, carried_eq]
    exact point_last m c ⟨0, h⟩ (k0_pay4 (F := Ideal)) cc (zeros_pad m c ⟨0, h⟩ (Nat.zero_mod 16) cc) ⟨j, hj⟩
  | succ n ih =>
    intro h cc j hj
    have hN : n + 1 < 64 := lt_of_lt_of_eq h (show cfg0.N = 64 from N_0)
    by_cases h0 : (n + 1) % 16 = 0
    · have h1 : ¬(n + 1) % 16 = 15 := by omega
      rw [outsAt0_A m c ⟨n + 1, h⟩ h0 h1]
      dsimp only
      rw [carry_first, carried_eq]
      exact point_last m c ⟨n + 1, h⟩ (k0_pay4 (F := Ideal)) cc (zeros_pad m c ⟨n + 1, h⟩ h0 cc) ⟨j, hj⟩
    · have hprev : ∀ (j : ℕ) (hj : j < 3),
          (outsAt0 m c n (Nat.lt_of_succ_lt h)).2.2 (ix2 (⟨j, hj⟩ : Fin 3) cc) = pad m c ⟨n + 1, h⟩ cc j :=
        fun j hj => (ih (Nat.lt_of_succ_lt h) cc j hj).trans (pad_prev m c ⟨n + 1, h⟩ h0 (Nat.lt_of_succ_lt h) cc j)
      by_cases h1 : (n + 1) % 16 = 15
      · rw [outsAt0_C m c ⟨n + 1, h⟩ h0 h1]
        dsimp only
        rw [carry_last, carried_eq]
        exact point_last m c ⟨n + 1, h⟩ _ cc hprev ⟨j, hj⟩
      · rw [outsAt0_B m c ⟨n + 1, h⟩ h0 h1]
        dsimp only
        rw [carry_middle, carried_eq]
        exact point_last m c ⟨n + 1, h⟩ _ cc hprev ⟨j, hj⟩

/-- So a point that is not the first of its batch row finds `pad t 0 .. pad t 2` carried. -/
theorem carried_prev (t : Fin cfg0.N) (h0 : ¬t.val % 16 = 0) (cc : Fin 2560) (j : ℕ) (hj : j < 3) :
    (outsAt0 m c (t.val - 1) (Nat.lt_of_le_of_lt (Nat.sub_le _ _) t.isLt)).2.2 (ix2 (⟨j, hj⟩ : Fin 3) cc) = pad m c t cc j :=
  (carry_inv m c (t.val - 1) _ cc j hj).trans (pad_prev m c t h0 _ cc j)

/-- THE OUTPUT TILE of every point is the convolution at the point's time steps. -/
theorem out_tile (t : Fin cfg0.N) (u : Fin 1) (r : Fin 256) (cc : Fin 2560) :
    (outsAt0 m c t.val t.isLt).1 (ix3 u r cc)
      = Conv.out (argX m c) (argSeg m c) (argW m c) (argB m c) (rowOf t) (stepOf t r) cc := by
  have hN := lt64 t
  by_cases h0 : t.val % 16 = 0
  · have h1 : ¬t.val % 16 = 15 := by omega
    rw [outsAt0_A m c t h0 h1]
    dsimp only
    rw [out_first]
    exact point_out m c t (k0_pay4 (F := Ideal)) cc (zeros_pad m c t h0 cc) u r
  · by_cases h1 : t.val % 16 = 15
    · rw [outsAt0_C m c t h0 h1]
      dsimp only
      rw [out_last]
      exact point_out m c t _ cc (carried_prev m c t h0 cc) u r
    · rw [outsAt0_B m c t h0 h1]
      dsimp only
      rw [out_middle]
      exact point_out m c t _ cc (carried_prev m c t h0 cc) u r

/-- THE CACHE TILE stored at the last tile of a batch row is the row's last three masked time steps. -/
theorem cache_tile (t : Fin cfg0.N) (h1 : t.val % 16 = 15) (u : Fin 1) (j : Fin 3) (cc : Fin 2560) :
    (outsAt0 m c t.val t.isLt).2.1 (ix3 u j cc)
      = Conv.masked (argX m c) (argSeg m c) (rowOf t) ⟨4093 + j.val, by have := j.isLt; omega⟩ cc := by
  have h0 : ¬t.val % 16 = 0 := by omega
  rw [outsAt0_C m c t h0 h1]
  dsimp only
  rw [cache_last, cache_apply, point_last m c t _ cc (carried_prev m c t h0 cc) j]
  unfold pad
  have hj := j.isLt
  rw [Conv.padded_ge _ _ (by omega) (by omega)]
  have e : (⟨t.val % 16 * 256 + (256 + j.val) - 3, by omega⟩ : Fin 4096) = ⟨4093 + j.val, by omega⟩ := Fin.ext (by show t.val % 16 * 256 + (256 + j.val) - 3 = 4093 + j.val; omega)
  rw [e]

end Cert.KernelIdeal.Tiles

end
-- ==== Proof.FinalArrays.lean ====
/-
  The two result arrays after the whole grid.

  Every point writes its output tile back, and the 64 tiles (batch row `t / 16`, time steps `256·(t % 16) ..`) tile the
  first result array, so it ends holding the convolution. The second result array's block of batch row `b` is written
  back once, after the last tile of that batch row (the points with `t % 16 = 15`), with the row's last three masked
  time steps; the four blocks tile it.
-/
import proofs.«115671_j50113678409896_2_alg».proof.Proof.TileValue

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Tiles

variable (m : (ℓ : Loc nD τ sig) → Buf (Elt Ideal) ℓ) (ρ : Dev nD → PrngReg) (c : Dev nD)

/-- The specification at device `c`'s argument arrays. -/
abbrev outRes : S4x4096x2560.Idx → Ideal .f32 := Conv.outArr (argX m c) (argSeg m c) (argW m c) (argB m c)
abbrev cacheRes : S4x3x2560.Idx → Ideal .f32 := Conv.cacheArr (argX m c) (argSeg m c)

/-! ## The first result -/

/-- What point `t` writes back is its block of the convolution. -/
theorem flushed_out (t : Fin cfg0.N) :
    (dats m 0 c).flushed 4 t = ((cfg0.win 4).blk t).view.read (Elt Ideal) (outRes m c) := by
  obtain ⟨-, -, -, -, -, -, -, -, -, e0, e1, e2, -⟩ := index_facts t
  rw [Value.flushed4]
  funext y
  obtain ⟨u, r, cc, rfl⟩ : ∃ (u : Fin 1) (r : Fin 256) (cc : Fin 2560), y = ix3 u r cc := ⟨y 0, y 1, y 2, eq_ix3 y⟩
  have hu : u.val = 0 := by omega
  rw [View.read_apply]
  show (outsAt0 m c t.val t.isLt).1 (ix3 u r cc) = outRes m c (((cfg0.win 4).blk t).view.emb (ix3 u r cc))
  have e : ((cfg0.win 4).blk t).view.emb (ix3 u r cc) = ix3 (rowOf t) (stepOf t r) cc := by
    funext a
    apply Fin.ext
    match a with
    | ⟨0, _⟩ => show win0_4.index t (0 : Fin 3) * 1 + 1 * u.val = t.val / 16; omega
    | ⟨1, _⟩ => show win0_4.index t (1 : Fin 3) * 256 + 1 * r.val = t.val % 16 * 256 + r.val; omega
    | ⟨2, _⟩ => show win0_4.index t (2 : Fin 3) * 2560 + 1 * cc.val = cc.val; omega
  rw [e, out_tile]
  rfl

/-- An index of the first result is in point `t`'s block iff each coordinate is in the block's range. -/
theorem mem_out_blk (t : Fin cfg0.N) (i : S4x4096x2560.Idx) :
    i ∈ ((cfg0.win 4).blk t).view.set ↔ ∀ a : Fin 3, win0_4.index t a * S1x256x2560.size a ≤ (i a).val
      ∧ (i a).val < win0_4.index t a * S1x256x2560.size a + S1x256x2560.size a := by
  show i ∈ ((View.whole main_v1_0).slice (win0_4.rect t)).set ↔ _
  rw [View.set_slice_whole, Rect.mem_set_unit]
  exact Iff.rfl

/-- Time step `s` of batch row `b` is in the block of point `16·b + s / 256`. -/
theorem cover_out (i : S4x4096x2560.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 2560 := (i 2).isLt
  let t : Fin cfg0.N := ⟨(i 0).val * 16 + (i 1).val / 256, by rw [show cfg0.N = 64 from N_0]; omega⟩
  obtain ⟨-, -, -, -, -, -, -, -, -, e0, e1, e2, -⟩ := index_facts t
  have ht : t.val = (i 0).val * 16 + (i 1).val / 256 := rfl
  refine ⟨t, flush0_4 t, ?_⟩
  rw [mem_out_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2560 ≤ (i 2).val ∧ (i 2).val < win0_4.index t (2 : Fin 3) * 2560 + 2560; omega

theorem final_out : (dats m 0 c).arrAt 4 cfg0.N = outRes m c :=
  (dats m 0 c).arrAt_eq_of_cover 4 (outRes m c) (fun t _ => flushed_out m c t) cover_out

/-! ## The second result -/

/-- What a point after the last tile of a batch row writes back is that row's block of the cache. -/
theorem flushed_cache (t : Fin cfg0.N) (hf : (cfg0.win 5).flush t = true) :
    (dats m 0 c).flushed 5 t = ((cfg0.win 5).blk t).view.read (Elt Ideal) (cacheRes m c) := by
  have h15 : t.val % 16 = 15 := (flush0_5 t).mp hf
  obtain ⟨-, -, -, -, -, -, -, -, -, -, -, -, e0, e1, e2⟩ := index_facts t
  rw [Value.flushed5]
  funext y
  obtain ⟨u, j, cc, rfl⟩ : ∃ (u : Fin 1) (j : Fin 3) (cc : Fin 2560), y = ix3 u j cc := ⟨y 0, y 1, y 2, eq_ix3 y⟩
  have hu : u.val = 0 := by omega
  rw [View.read_apply]
  show (outsAt0 m c t.val t.isLt).2.1 (ix3 u j cc) = cacheRes m c (((cfg0.win 5).blk t).view.emb (ix3 u j cc))
  have e : ((cfg0.win 5).blk t).view.emb (ix3 u j cc) = ix3 (rowOf t) j cc := by
    funext a
    apply Fin.ext
    match a with
    | ⟨0, _⟩ => show win0_5.index t (0 : Fin 3) * 1 + 1 * u.val = t.val / 16; omega
    | ⟨1, _⟩ => show win0_5.index t (1 : Fin 3) * 3 + 1 * j.val = j.val; omega
    | ⟨2, _⟩ => show win0_5.index t (2 : Fin 3) * 2560 + 1 * cc.val = cc.val; omega
  rw [e, cache_tile m c t h15]
  rfl

theorem mem_cache_blk (t : Fin cfg0.N) (i : S4x3x2560.Idx) :
    i ∈ ((cfg0.win 5).blk t).view.set ↔ ∀ a : Fin 3, win0_5.index t a * S1x3x2560.size a ≤ (i a).val
      ∧ (i a).val < win0_5.index t a * S1x3x2560.size a + S1x3x2560.size a := by
  show i ∈ ((View.whole main_v1_1).slice (win0_5.rect t)).set ↔ _
  rw [View.set_slice_whole, Rect.mem_set_unit]
  exact Iff.rfl

/-- Batch row `b` of the cache is the block of point `16·b + 15`. -/
theorem cover_cache (i : S4x3x2560.Idx) :
    ∃ t : Fin cfg0.N, (cfg0.win 5).flush t = true ∧ i ∈ ((cfg0.win 5).blk t).view.set := by
  have h0 : (i 0).val < 4 := (i 0).isLt
  have h1 : (i 1).val < 3 := (i 1).isLt
  have h2 : (i 2).val < 2560 := (i 2).isLt
  let t : Fin cfg0.N := ⟨(i 0).val * 16 + 15, by rw [show cfg0.N = 64 from N_0]; omega⟩
  obtain ⟨-, -, -, -, -, -, -, -, -, -, -, -, e0, e1, e2⟩ := index_facts t
  have ht : t.val = (i 0).val * 16 + 15 := rfl
  refine ⟨t, (flush0_5 t).mpr (by omega), ?_⟩
  rw [mem_cache_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 3 ≤ (i 1).val ∧ (i 1).val < win0_5.index t (1 : Fin 3) * 3 + 3; omega
  | ⟨2, _⟩ => show win0_5.index t (2 : Fin 3) * 2560 ≤ (i 2).val ∧ (i 2).val < win0_5.index t (2 : Fin 3) * 2560 + 2560; omega

theorem final_cache : (dats m 0 c).arrAt 5 cfg0.N = cacheRes m c :=
  (dats m 0 c).arrAt_eq_of_cover 5 (cacheRes m c) (flushed_cache m c) cover_cache

/-! ## The run -/

/-- Every weakly fair execution of the idealized kernel ends with the two results at the specification and the
    arguments unchanged. -/
theorem run : θ_run defs (onTc (τ := τ) (main (F := Ideal))) ⟨m, fun _ => 0, ρ⟩ fun r => ∀ c : Dev nD,
      r.2.mem ((c : Thread nD τ).loc main_v1_0) = outRes m c
      ∧ r.2.mem ((c : Thread nD τ).loc main_v1_1) = cacheRes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_out m c), (h c).2.1.trans (final_cache m c), (h c).2.2⟩)
    (Value.run_blocks m ρ)

end Cert.KernelIdeal.Final

end
-- ==== Proof.RefValue.lean ====
/-
  The reference program computes the specification.

  Its result is, index by index: the bias broadcast over batch rows and time steps, plus four products added in order,
  product `k` being the padded masked input shifted by `k` time steps times filter row `k` broadcast over batch rows and
  time steps. The padded input is the masked input with three time steps of the padding value — the integer 0 converted to a
  float, the real 0 — put in front of every batch row. Its second result is the masked input's last three time steps.
-/
import proofs.«115671_j50113678409896_2_alg».proof.Proof.Gen.ReferenceIdeal.Read
import proofs.«115671_j50113678409896_2_alg».proof.Proof.ConvSpec
import Idealize.ShloMosaic.Lib.KernelVsHost
import Idealize.ShloMosaic.Lib.ValueIdx

set_option maxRecDepth 16384

noncomputable section

open Idealize.ShloMosaic Idealize.ShloMosaic.ValueIdx

namespace Cert.ReferenceIdeal.RefValue

open Cert.ReferenceIdeal Cert.ReferenceIdeal.Gen Cert.ReferenceIdeal.Read

variable (x0 : S4x4096x2560.Idx → Ideal .f32) (x1 : S4x4096.Idx → BitVec 32) (x2 : S4x2560.Idx → Ideal .f32)
  (x3 : S2560.Idx → Ideal .f32)

/-- The masked input. -/
theorem masked_apply (b : Fin 4) (s : Fin 4096) (cc : Fin 2560) :
    val_main_v5 (F := Ideal) x0 x1 (ix3 b s cc) = Conv.masked x0 x1 b s cc := by
  rw [val_main_v5_apply, val_main_v4_apply, val_main_v3_apply, val_main_v2_apply, val_main_v1_apply, val_main_v0_apply,
    val_main_c_apply]
  have e : idx_main_v2 (idx_main_v4 (ix3 b s cc)) = ix2 b s := funext fun a => match a with
    | ⟨0, _⟩ => rfl
    | ⟨1, _⟩ => rfl
  rw [e]
  rfl

/-- The padding value is 0. -/
theorem padding_value : val_main_call0_v0 (F := Ideal) (Shape.Idx.first h_S_) = 0 := by
  rw [val_main_call0_v0_apply, val_main_c_0_apply]
  show (((0#32 : BitVec 32).toInt : ℝ) : EReal) = 0
  norm_num

/-- The padded input: three time steps of zeros, then the masked input. -/
theorem padded_apply (b : Fin 4) (j : ℕ) (hj : j < 4099) (cc : Fin 2560) :
    val_main_v6 (F := Ideal) x0 x1 (ix3 b (⟨j, hj⟩ : Fin 4099) cc) = Conv.padded x0 x1 b j cc := by
  unfold val_main_v6
  by_cases h3 : 3 ≤ j
  · rw [Conv.padded_ge _ _ h3 (by omega), ← masked_apply]
    refine pad_apply_of_inside _ _ _ _ _ _ _ _ (ix3 b (⟨j - 3, by omega⟩ : Fin 4096) cc) fun a => ?_
    match a with
    | ⟨0, _⟩ => show b.val = 0 + b.val * (0 + 1); omega
    | ⟨1, _⟩ => show j = 3 + (j - 3) * (0 + 1); omega
    | ⟨2, _⟩ => show cc.val = 0 + cc.val * (0 + 1); omega
  · rw [Conv.padded_lt _ _ (by omega), ← padding_value]
    refine pad_apply_of_not_inside _ _ _ _ _ _ _ _ (1 : Fin 3) fun h => ?_
    have h0 : (3 : ℕ) ≤ j := h.1
    omega

/-- The padded input shifted by `k` time steps. -/
theorem shift0_apply (b : Fin 4) (s : Fin 4096) (cc : Fin 2560) :
    val_main_v8 (F := Ideal) x0 x1 (ix3 b s cc) = Conv.padded x0 x1 b s.val cc := by
  have hs := s.isLt
  rw [val_main_v8_apply]
  have e : idx_main_v8 (ix3 b s cc) = ix3 b (⟨s.val, by omega⟩ : Fin 4099) cc := funext fun a => match a with
    | ⟨0, _⟩ => rfl
    | ⟨1, _⟩ => rfl
    | ⟨2, _⟩ => rfl
  rw [e, padded_apply]

theorem shift1_apply (b : Fin 4) (s : Fin 4096) (cc : Fin 2560) :
    val_main_v15 (F := Ideal) x0 x1 (ix3 b s cc) = Conv.padded x0 x1 b (s.val + 1) cc := by
  have hs := s.isLt
  rw [val_main_v15_apply]
  have e : idx_main_v15 (ix3 b s cc) = ix3 b (⟨s.val + 1, by omega⟩ : Fin 4099) cc := funext fun a => match a with
    | ⟨0, _⟩ => rfl
    | ⟨1, _⟩ => Fin.ext (by show 1 + s.val = s.val + 1; omega)
    | ⟨2, _⟩ => rfl
  rw [e, padded_apply]

theorem shift2_apply (b : Fin 4) (s : Fin 4096) (cc : Fin 2560) :
    val_main_v22 (F := Ideal) x0 x1 (ix3 b s cc) = Conv.padded x0 x1 b (s.val + 2) cc := by
  have hs := s.isLt
  rw [val_main_v22_apply]
  have e : idx_main_v22 (ix3 b s cc) = ix3 b (⟨s.val + 2, by omega⟩ : Fin 4099) cc := funext fun a => match a with
    | ⟨0, _⟩ => rfl
    | ⟨1, _⟩ => Fin.ext (by show 2 + s.val = s.val + 2; omega)
    | ⟨2, _⟩ => rfl
  rw [e, padded_apply]

theorem shift3_apply (b : Fin 4) (s : Fin 4096) (cc : Fin 2560) :
    val_main_v29 (F := Ideal) x0 x1 (ix3 b s cc) = Conv.padded x0 x1 b (s.val + 3) cc := by
  have hs := s.isLt
  rw [val_main_v29_apply]
  have e : idx_main_v29 (ix3 b s cc) = ix3 b (⟨s.val + 3, by omega⟩ : Fin 4099) cc := funext fun a => match a with
    | ⟨0, _⟩ => rfl
    | ⟨1, _⟩ => Fin.ext (by show 3 + s.val = s.val + 3; omega)
    | ⟨2, _⟩ => rfl
  rw [e, padded_apply]

/-- Filter row `k` broadcast over batch rows and time steps. -/
theorem filter0_apply (b : Fin 4) (s : Fin 4096) (cc : Fin 2560) :
    val_main_v12 (F := Ideal) x2 (ix3 b s cc) = x2 (ix2 (0 : Fin 4) cc) := by
  rw [val_main_v12_apply, val_main_v11_apply, val_main_v10_apply, val_main_v9_apply]
  exact congrArg x2 (funext fun a => match a with
    | ⟨0, _⟩ => rfl
    | ⟨1, _⟩ => Fin.ext (Nat.mod_eq_of_lt cc.isLt))

theorem filter1_apply (b : Fin 4) (s : Fin 4096) (cc : Fin 2560) :
    val_main_v19 (F := Ideal) x2 (ix3 b s cc) = x2 (ix2 (1 : Fin 4) cc) := by
  rw [val_main_v19_apply, val_main_v18_apply, val_main_v17_apply, val_main_v16_apply]
  exact congrArg x2 (funext fun a => match a with
    | ⟨0, _⟩ => rfl
    | ⟨1, _⟩ => Fin.ext (Nat.mod_eq_of_lt cc.isLt))

theorem filter2_apply (b : Fin 4) (s : Fin 4096) (cc : Fin 2560) :
    val_main_v26 (F := Ideal) x2 (ix3 b s cc) = x2 (ix2 (2 : Fin 4) cc) := by
  rw [val_main_v26_apply, val_main_v25_apply, val_main_v24_apply, val_main_v23_apply]
  exact congrArg x2 (funext fun a => match a with
    | ⟨0, _⟩ => rfl
    | ⟨1, _⟩ => Fin.ext (Nat.mod_eq_of_lt cc.isLt))

theorem filter3_apply (b : Fin 4) (s : Fin 4096) (cc : Fin 2560) :
    val_main_v33 (F := Ideal) x2 (ix3 b s cc) = x2 (ix2 (3 : Fin 4) cc) := by
  rw [val_main_v33_apply, val_main_v32_apply, val_main_v31_apply, val_main_v30_apply]
  exact congrArg x2 (funext fun a => match a with
    | ⟨0, _⟩ => rfl
    | ⟨1, _⟩ => Fin.ext (Nat.mod_eq_of_lt cc.isLt))

theorem bias_apply (b : Fin 4) (s : Fin 4096) (cc : Fin 2560) :
    val_main_v7 (F := Ideal) x3 (ix3 b s cc) = x3 (ix1 cc) := by
  rw [val_main_v7_apply]
  exact congrArg x3 (funext fun a => match a with
    | ⟨0, _⟩ => rfl)

/-- THE FIRST RESULT is the convolution. -/
theorem out_eq : val_main_v35 (F := Ideal) x0 x1 x2 x3 = Conv.outArr x0 x1 x2 x3 := by
  funext i
  obtain ⟨b, s, cc, rfl⟩ : ∃ (b : Fin 4) (s : Fin 4096) (cc : Fin 2560), i = ix3 b s cc := ⟨i 0, i 1, i 2, eq_ix3 i⟩
  rw [val_main_v35_apply, val_main_v34_apply, val_main_v28_apply, val_main_v27_apply, val_main_v21_apply, val_main_v20_apply,
    val_main_v14_apply, val_main_v13_apply, bias_apply, shift0_apply, shift1_apply, shift2_apply, shift3_apply,
    filter0_apply, filter1_apply, filter2_apply, filter3_apply]
  rfl

/-- THE SECOND RESULT is the last three masked time steps. -/
theorem cache_eq : val_main_v36 (F := Ideal) x0 x1 = Conv.cacheArr x0 x1 := by
  funext i
  obtain ⟨b, j, cc, rfl⟩ : ∃ (b : Fin 4) (j : Fin 3) (cc : Fin 2560), i = ix3 b j cc := ⟨i 0, i 1, i 2, eq_ix3 i⟩
  rw [val_main_v36_apply]
  have hj := j.isLt
  have e : idx_main_v36 (ix3 b j cc) = ix3 b (⟨4093 + j.val, by omega⟩ : Fin 4096) cc := funext fun a => match a with
    | ⟨0, _⟩ => rfl
    | ⟨1, _⟩ => rfl
    | ⟨2, _⟩ => rfl
  rw [e, masked_apply]
  rfl

end Cert.ReferenceIdeal.RefValue

end
-- ==== Proof.lean ====
/-
  A causal depthwise convolution over time with a document mask (four taps, the first time step of every document
  zeroed), computed tile by tile with three rows carried between tiles, against the same convolution written with a
  zero-padded copy of the masked input.

  Over the extended reals both programs compute, per batch row `b`, time step `s` and channel `c`,
  `(((bias c + p s · w 0 c) + p (s+1) · w 1 c) + p (s+2) · w 2 c) + p (s+3) · w 3 c`, where `p` is the masked input of
  batch row `b` with three zeros in front, and, as a second result, the last three masked time steps of every batch row
  (Proof/ConvSpec.lean). The kernel side is Proof/BodyValue.lean (one grid point as a function of what it finds),
  Proof/BodyRead.lean (that function entry by entry), Proof/TileRead.lean (the blocks a point finds), Proof/TileValue.lean
  (the induction over the grid: what is carried) and Proof/FinalArrays.lean (the result arrays); the reference side is
  Proof/RefValue.lean. No finiteness of the inputs is used: both sides are the same sums and products of the same
  entries, in the same order. The kernel's idealization rewrote no operation, so `preserves` has nothing to state.
-/
import proofs.«115671_j50113678409896_2_alg».proof.Defs
import proofs.«115671_j50113678409896_2_alg».proof.Proof.Gen.Kernel
import proofs.«115671_j50113678409896_2_alg».proof.Proof.Gen.Kernel.Skeleton
import proofs.«115671_j50113678409896_2_alg».proof.Proof.Gen.Kernel.Launch
import proofs.«115671_j50113678409896_2_alg».proof.Proof.Gen.Kernel.Points
import proofs.«115671_j50113678409896_2_alg».proof.Proof.Gen.Kernel.Frame
import proofs.«115671_j50113678409896_2_alg».proof.Proof.Gen.KernelIdeal
import proofs.«115671_j50113678409896_2_alg».proof.Proof.Gen.KernelIdeal.Skeleton
import proofs.«115671_j50113678409896_2_alg».proof.Proof.Gen.KernelIdeal.Launch
import proofs.«115671_j50113678409896_2_alg».proof.Proof.Gen.KernelIdeal.Points
import proofs.«115671_j50113678409896_2_alg».proof.Proof.Gen.KernelIdeal.Frame
import proofs.«115671_j50113678409896_2_alg».proof.Proof.Gen.ReferenceIdeal
import proofs.«115671_j50113678409896_2_alg».proof.Proof.Gen.Pre_finite_inputs
import proofs.«115671_j50113678409896_2_alg».proof.Proof.Gen.KernelIdeal.Value
import proofs.«115671_j50113678409896_2_alg».proof.Proof.Gen.ReferenceIdeal.Run
import proofs.«115671_j50113678409896_2_alg».proof.Proof.Gen.ReferenceIdeal.Read
import proofs.«115671_j50113678409896_2_alg».proof.Proof.FinalArrays
import proofs.«115671_j50113678409896_2_alg».proof.Proof.RefValue
import Idealize.ShloMosaic.Adequacy
import Idealize.ShloMosaic.Init

noncomputable section

namespace Cert.Proof

open Idealize.ShloMosaic Idealize.SL.Sem

namespace ConvClaims

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- Both programs end with the specification of the argument arrays, and the argument arrays agree. -/
theorem algebraic : Cert.algebraic_KernelIdeal_ReferenceIdeal := by
  intro m ρ m' ρ' _ hagree
  refine ⟨fun c => Cert.KernelIdeal.Final.outRes m c, fun c => Cert.KernelIdeal.Final.cacheRes m c,
    Cert.KernelIdeal.Final.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v35_eq, Cert.ReferenceIdeal.RefValue.out_eq, (hagree c).1,
      (hagree c).2.1, (hagree c).2.2.1, (hagree c).2.2.2]
  · rw [(h c).2.1, Cert.ReferenceIdeal.Read.val_main_v36_eq, Cert.ReferenceIdeal.RefValue.cache_eq, (hagree c).1,
      (hagree c).2.1]

end ConvClaims

theorem claim : Cert.Claim :=
  ⟨Cert.Kernel.Gen.facts, Cert.KernelIdeal.Gen.facts, Cert.ReferenceIdeal.Gen.facts, Cert.Pre_finite_inputs.Gen.facts,
    ConvClaims.frame_k, ConvClaims.frame_ki, ConvClaims.frame_ri, ConvClaims.preserves, ConvClaims.algebraic⟩

end Cert.Proof

end
